-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x512 : Shape := ⟨2, ![5000, 512]⟩
abbrev S5000x16 : Shape := ⟨2, ![5000, 16]⟩
abbrev S3200000x16 : Shape := ⟨2, ![3200000, 16]⟩
abbrev S1x16 : Shape := ⟨2, ![1, 16]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 77
  | .vmem => 24
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S3200000x1, .f32⟩
  | .hbm, ⟨42, _⟩ => ⟨S100000x16, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x16, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S1x16, .f32⟩
  | .hbm, ⟨59, _⟩ => ⟨S100000x16, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x16, .f32⟩
  | .hbm, ⟨69, _⟩ => ⟨S3200000x16, .f32⟩
  | .hbm, ⟨70, _⟩ => ⟨S3200000x16, .f32⟩
  | .hbm, ⟨71, _⟩ => ⟨S_, .f32⟩
  | .hbm, ⟨72, _⟩ => ⟨S100000x16, .f32⟩
  | .hbm, ⟨73, _⟩ => ⟨S3200000x1, .i32⟩
  | .hbm, ⟨74, _⟩ => ⟨S100000x16, .f32⟩
  | .hbm, ⟨75, _⟩ => ⟨S1x40, .f32⟩
  | .hbm, ⟨76, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x1, .f32⟩
  | .local _ .vmem, ⟨19, _⟩ => ⟨S5000x1, .f32⟩
  | .local _ .vmem, ⟨20, _⟩ => ⟨S16x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S40_S1x40 : S40.ShapeCasts S1x40
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x40.size a ≤ S16x40.size a
  hwx2_3 : ∀ i : grid2.Coords, EltTy.bits .f32 = 32 ∨ (Rect.block (s := S16x40) S16x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S16x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x16, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x16, .f32⟩
  | .hbm, ⟨49, _⟩ => ⟨S3200000x1, .f32⟩
  | .hbm, ⟨50, _⟩ => ⟨S3200000x16, .f32⟩
  | .hbm, ⟨51, _⟩ => ⟨S3200000x16, .f32⟩
  | .hbm, ⟨52, _⟩ => ⟨S_, .f32⟩
  | .hbm, ⟨53, _⟩ => ⟨S100000x16, .f32⟩
  | .hbm, ⟨54, _⟩ => ⟨S3200000x1, .i32⟩
  | .hbm, ⟨55, _⟩ => ⟨S100000x16, .f32⟩
  | .hbm, ⟨56, _⟩ => ⟨S100000, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S100000x40, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S3200000, .f32⟩
  | .hbm, ⟨86, _⟩ => ⟨S3200000, .f32⟩
  | .hbm, ⟨87, _⟩ => ⟨S_, .i32⟩
  | .hbm, ⟨88, _⟩ => ⟨S3200000, .i32⟩
  | .hbm, ⟨89, _⟩ => ⟨S3200000, .i1⟩
  | .hbm, ⟨90, _⟩ => ⟨S_, .i32⟩
  | .hbm, ⟨91, _⟩ => ⟨S3200000, .i32⟩
  | .hbm, ⟨92, _⟩ => ⟨S3200000, .i32⟩
  | .hbm, ⟨93, _⟩ => ⟨S3200000, .i32⟩
  | .hbm, ⟨94, _⟩ => ⟨S3200000x1, .i32⟩
  | .hbm, ⟨95, _⟩ => ⟨S3200000x40, .f32⟩
  | .hbm, ⟨96, _⟩ => ⟨S3200000x1, .f32⟩
  | .hbm, ⟨97, _⟩ => ⟨S3200000x40, .f32⟩
  | .hbm, ⟨98, _⟩ => ⟨S3200000x40, .f32⟩
  | .hbm, ⟨99, _⟩ => ⟨S_, .f32⟩
  | .hbm, ⟨100, _⟩ => ⟨S100000x40, .f32⟩
  | .hbm, ⟨101, _⟩ => ⟨S3200000x1, .i32⟩
  | .hbm, ⟨102, _⟩ => ⟨S100000x40, .f32⟩
  | .hbm, ⟨103, _⟩ => ⟨S100000, .f32⟩
  | .hbm, ⟨104, _⟩ => ⟨S100000x1, .f32⟩
  | .hbm, ⟨105, _⟩ => ⟨S100000x40, .f32⟩
  | .hbm, ⟨106, _⟩ => ⟨S100000x40, .f32⟩
  | .hbm, ⟨107, _⟩ => ⟨S100000x40, .f32⟩
  | .hbm, ⟨108, _⟩ => ⟨S1x40, .f32⟩
  | .hbm, ⟨109, _⟩ => ⟨S100000x40, .f32⟩
  | .hbm, ⟨110, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3200000x1_S3200000_n_0_0_1_wf : ScatterDims.WF S100000 S3200000x1 S3200000 [] [0] [0] 1
  dot_S100000x512_S512x16_S100000x16_1_0_0_1_n_n_wf : DotDims.WF S100000x512 S512x16 S100000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KRun.lean ====
/-
  The idealized kernel program's run, with its result named.

  The program is three kernel regions among stretches of host operations.  Every weakly fair execution terminates
  without a fault; at the end the result buffer holds what the last region's write-backs leave in it (the fold of
  the buffer contents through the six segments, read at the result), and the six argument arrays are as launched.
-/
import proofs.«155849_j41059887350377_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched. -/
theorem run_out : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.KPay.lean ====
/-
  What each of the three kernel bodies stores, read at one entry of its block, on the extended reals.

  * the first body stores the product of its 5000 x 512 block of the features by the whole 512 x 16 weight matrix:
    entry (p, q) is the sum over k of left (p, k) * right (k, q);
  * the second body stores max (agg + h * d + b, 0): the aggregated block plus the projected block scaled row by row
    by a column of factors, plus a bias row, clamped below at zero;
  * the third body stores (agg + h * d) times the 16 x 40 weight matrix, plus a bias row.
-/
import proofs.«155849_j41059887350377_2_alg».proof.Proof.Gen.KernelIdeal.Skeleton
import proofs.«155849_j41059887350377_2_alg».proof.Proof.LibPlainMatmul
import proofs.«155849_j41059887350377_2_alg».proof.Proof.LibRowLayout
import proofs.«155849_j41059887350377_2_alg».proof.Proof.LibRowBias
import Idealize.ShloMosaic.PureOps.Ideal.Laws
import Idealize.ShloMosaic.Lib.ValueIdx
import Idealize.ShloMosaic.Lib.Pipeline.Value

noncomputable section

open scoped BigOperators

namespace Cert.KernelIdeal.KPay

open Cert.KernelIdeal Cert.KernelIdeal.Gen
open Idealize.ShloMosaic Idealize.ShloMosaic.ValueIdx

/-! ## The two matrix products' coordinate placements -/

theorem lhsA_0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhsA_1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem rhsA_0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem rhsA_1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

theorem lhsB_0 (i : S5000x40.Idx) (q : dot_S5000x16_S16x40_S5000x40_1_0_0_1_n_n.contr.Idx) :
    (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem lhsB_1 (i : S5000x40.Idx) (q : dot_S5000x16_S16x40_S5000x40_1_0_0_1_n_n.contr.Idx) :
    (dot_S5000x16_S16x40_S5000x40_1_0_0_1_n_n.lhsIdx i q 1).val = (q ⟨0, by decide⟩).val :=
  dot_S5000x16_S16x40_S5000x40_1_0_0_1_n_n.lhsIdx_val_of_single rfl i q
theorem rhsB_0 (i : S5000x40.Idx) (q : dot_S5000x16_S16x40_S5000x40_1_0_0_1_n_n.contr.Idx) :
    (dot_S5000x16_S16x40_S5000x40_1_0_0_1_n_n.rhsIdx i q 0).val = (q ⟨0, by decide⟩).val :=
  dot_S5000x16_S16x40_S5000x40_1_0_0_1_n_n.rhsIdx_val_of_single rfl i q
theorem rhsB_1 (i : S5000x40.Idx) (q : dot_S5000x16_S16x40_S5000x40_1_0_0_1_n_n.contr.Idx) :
    (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-! ## The payloads at an entry -/

/-- The first body: a block of the features times the weight matrix. -/
theorem project_apply (v0 : Vec Ideal S5000x512 .f32) (v1 : Vec Ideal S512x16 .f32) (p : Fin 5000) (q : Fin 16) :
    k0_pay1 (F := Ideal) v0 v1 (ix2 p q) = ∑ k : Fin 512, v0 (ix2 p k) * v1 (ix2 k q) := by
  unfold k0_pay1
  exact Cert.PlainMatmul.matmul_zero_apply dot_S5000x512_S512x16_S5000x16_1_0_0_1_n_n rfl rfl
    lhsA_0 lhsA_1 rhsA_0 rhsA_1 none v0 v1 p q

/-- The second body: aggregate plus scaled own row plus bias, clamped below at zero. -/
theorem combine_apply (v0 v2 : Vec Ideal S5000x16 .f32) (v4 : Vec Ideal S5000x1 .f32) (v9 : Vec Ideal S1x16 .f32)
    (p : Fin 5000) (q : Fin 16) :
    k1_pay1 (F := Ideal) v0 v2 v4 v9 (ix2 p q)
      = max ((v0 (ix2 p q) + v2 (ix2 p q) * v4 (ix2 p (0 : Fin 1))) + v9 (ix2 (0 : Fin 1) q)) 0 := by
  unfold k1_pay1
  simp only [shapeCast_self]
  show max ((v0 (ix2 p q) + v2 (ix2 p q) * broadcastTo S5000x16 v4 broadcasts_S5000x1_S5000x16 (ix2 p q))
      + broadcastTo S5000x16 v9 broadcasts_S1x16_S5000x16 (ix2 p q)) (Ideal.ofBits .f32 0x00000000#32) = _
  rw [Cert.RowLayout.bcastCol_apply v4 broadcasts_S5000x1_S5000x16 p q,
    Cert.RowBias.bcastRow_apply v9 broadcasts_S1x16_S5000x16 p q, Ideal.ofBits_zero_f32]

/-- The third body: (aggregate plus scaled own row) times the weight matrix, plus a bias row. -/
theorem aggProject_apply (v0 v2 : Vec Ideal S5000x16 .f32) (v4 : Vec Ideal S5000x1 .f32) (v9 : Vec Ideal S16x40 .f32)
    (v11 : Vec Ideal S1x40 .f32) (p : Fin 5000) (q : Fin 40) :
    k2_pay1 (F := Ideal) v0 v2 v4 v9 v11 (ix2 p q)
      = (∑ k : Fin 16, (v0 (ix2 p k) + v2 (ix2 p k) * v4 (ix2 p (0 : Fin 1))) * v9 (ix2 k q)) + v11 (ix2 (0 : Fin 1) q) := by
  unfold k2_pay1
  simp only [shapeCast_self]
  show matmul dot_S5000x16_S16x40_S5000x40_1_0_0_1_n_n none
        (addf v0 (mulf v2 (broadcastTo S5000x16 v4 broadcasts_S5000x1_S5000x16))) v9
        (constant (F := Ideal) S5000x40 .f32 0x00000000#32) (ix2 p q)
      + broadcastTo S5000x40 v11 broadcasts_S1x40_S5000x40 (ix2 p q) = _
  rw [Cert.RowBias.bcastRow_apply v11 broadcasts_S1x40_S5000x40 p q,
    Cert.PlainMatmul.matmul_zero_apply dot_S5000x16_S16x40_S5000x40_1_0_0_1_n_n rfl rfl
      lhsB_0 lhsB_1 rhsB_0 rhsB_1 none _ v9 p q]
  refine congrArg (· + v11 (ix2 (0 : Fin 1) q)) (Finset.sum_congr rfl fun k _ => ?_)
  show (v0 (ix2 p k) + v2 (ix2 p k) * broadcastTo S5000x16 v4 broadcasts_S5000x1_S5000x16 (ix2 p k)) * v9 (ix2 k q) = _
  rw [Cert.RowLayout.bcastCol_apply v4 broadcasts_S5000x1_S5000x16 p k]

end Cert.KernelIdeal.KPay

end
-- ==== Proof.KRegion.lean ====
/-
  What each kernel region leaves in its result array, as one function of the arrays the region finds.

  Each region runs its body at 20 grid points; point t handles rows 5000 t .. 5000 t + 4999 of the row-indexed arrays
  and sees the small operands (weights, bias rows) whole.  The block a point writes back is the body's stored value of
  the input blocks at that point, and that is the corresponding block of ONE whole-array function of the input arrays;
  the 20 blocks tile the result array, so the array ends holding that function.
-/
import proofs.«155849_j41059887350377_2_alg».proof.Proof.Gen.KernelIdeal.Frame
import proofs.«155849_j41059887350377_2_alg».proof.Proof.KPay
import Idealize.ShloMosaic.Lib.Pipeline.Value
import Idealize.ShloMosaic.Lib.ValueIdx

set_option maxRecDepth 16384

noncomputable section

open scoped BigOperators

namespace Cert.KernelIdeal.KRegion

open Cert.KernelIdeal Cert.KernelIdeal.Gen Cert.KernelIdeal.KPay
open Idealize.ShloMosaic Idealize.ShloMosaic.TcCoe Idealize.ShloMosaic.ValueIdx
open Idealize.SL.Sem
open Idealize.ShloMosaic.Pipeline (Dat Cfg Window)

/-! ## The three whole-array functions -/

/-- Every row of the features times the weight matrix. -/
def projectAll (a : S100000x512.Idx → EReal) (w : S512x16.Idx → EReal) : S100000x16.Idx → EReal :=
  fun (i : S100000x16.Idx) => (∑ k : Fin 512, a (ix2 (i 0) k) * w (ix2 k (i 1)) : EReal)

/-- Aggregate plus own row scaled by the row's factor plus the bias row, clamped below at zero. -/
def combineAll (agg hp : S100000x16.Idx → EReal) (d : S100000x1.Idx → EReal) (b : S1x16.Idx → EReal) :
    S100000x16.Idx → EReal :=
  fun (i : S100000x16.Idx) => (max ((agg i + hp i * d (ix2 (i 0) (0 : Fin 1))) + b (ix2 (0 : Fin 1) (i 1))) 0 : EReal)

/-- (Aggregate plus own row scaled by the row's factor) times the weight matrix, plus the bias row. -/
def aggProjectAll (agg h : S100000x16.Idx → EReal) (d : S100000x1.Idx → EReal) (w : S16x40.Idx → EReal)
    (b : S1x40.Idx → EReal) : S100000x40.Idx → EReal :=
  fun (i : S100000x40.Idx) => ((∑ k : Fin 16, (agg (ix2 (i 0) k) + h (ix2 (i 0) k) * d (ix2 (i 0) (0 : Fin 1))) * w (ix2 k (i 1)))
    + b (ix2 (0 : Fin 1) (i 1)) : EReal)

theorem hz : (![0, 0] : Fin 2 → Nat) = fun _ => 0 := funext fun a => by fin_cases a <;> rfl

variable (V : (c : Dev nD) → (b : Ref sig .tc) → Buf (Elt Ideal) ((c : Thread nD τ).loc b))

/-! ## The first region: the projection of the features -/

/-- The block positions over the grid: the feature block and the result block move together down the rows, the weight
    matrix is seen whole. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is block t of the projection of the arrays the region finds. -/
theorem flushed0 (c : Dev nD) (t : Fin cfg0.N) :
    (dat0 (F := Ideal) V c).flushed 2 t
      = ((cfg0.win 2).blk t).view.read (Elt Ideal) (projectAll (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts0 t
  funext j
  obtain ⟨p, q, rfl⟩ : ∃ (p : Fin 5000) (q : Fin 16), j = ix2 p q := ⟨j 0, j 1, eq_ix2 j⟩
  refine (project_apply _ _ p q).trans ?_
  show _ = projectAll (V c main_arg0) (V c main_arg2) (((cfg0.win 2).blk t).view.emb (ix2 p q))
  unfold projectAll
  refine Finset.sum_congr rfl fun k _ => ?_
  have h0 : ((cfg0.win 0).blk t).view.emb (ix2 p k)
      = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  have h1 : ((cfg0.win 1).blk t).view.emb (ix2 k q)
      = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  exact congrArg₂ (fun (x y : EReal) => x * y) (congrArg (V c main_arg0) h0) (congrArg (V c main_arg2) h1)

/-- An index of the result array is in point t's block iff each coordinate is in the block's range. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v29).slice (win0_2.rect t)).set ↔ _
  rw [View.set_slice_whole, Rect.mem_set_unit]
  exact Iff.rfl

/-- Every index of the result array is in some point's block: the point of its row block. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE FIRST REGION'S RESULT ARRAY is the projection of the features it finds. -/
theorem final0 (c : Dev nD) :
    (dat0 (F := Ideal) V c).arrAt 2 cfg0.N = projectAll (V c main_arg0) (V c main_arg2) :=
  (dat0 V c).arrAt_eq_of_cover 2 (projectAll (V c main_arg0) (V c main_arg2)) (fun t _ => flushed0 V c t) (cover0)

/-! ## The second region: aggregate, own row, bias, clamp -/

/-- The block positions over the grid: the three row-indexed operands and the result move together down the rows,
    the bias row is seen whole. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 19 :=
  (by decide +kernel : ∀ t : Fin grid1.N, _)

theorem idx_onto1 : ∀ q0 : Fin 20, ∃ t : Fin cfg1.N, win1_4.index t = ![q0.val, 0] :=
  (by decide +kernel : ∀ q0 : Fin 20, ∃ t : Fin grid1.N, win1_4.index t = ![q0.val, 0])

/-- What point t writes back is block t of the combination of the arrays the region finds. -/
theorem flushed1 (c : Dev nD) (t : Fin cfg1.N) :
    (dat1 (F := Ideal) V c).flushed 4 t
      = ((cfg1.win 4).blk t).view.read (Elt Ideal)
          (combineAll (V c main_v41) (V c main_v29) (V c main_v12) (V c main_v42)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz]
  obtain ⟨e0, e1, e2, e3, e4, e5, e6, e7, e8, e9⟩ := idx_facts1 t
  funext j
  obtain ⟨p, q, rfl⟩ : ∃ (p : Fin 5000) (q : Fin 16), j = ix2 p q := ⟨j 0, j 1, eq_ix2 j⟩
  refine (combine_apply _ _ _ _ p q).trans ?_
  show _ = combineAll (V c main_v41) (V c main_v29) (V c main_v12) (V c main_v42) (((cfg1.win 4).blk t).view.emb (ix2 p q))
  unfold combineAll
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 16 + 1 * q.val = win1_4.index t (1 : Fin 2) * 16 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 16 + 1 * q.val = win1_4.index t (1 : Fin 2) * 16 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 16 + 1 * q.val = win1_4.index t (1 : Fin 2) * 16 + 1 * q.val; omega
  exact congrArg₂ (fun (x y : EReal) => max (x + y) 0)
    (congrArg₂ (fun (x y : EReal) => x + y) (congrArg (V c main_v41) h0)
      (congrArg₂ (fun (x y : EReal) => x * y) (congrArg (V c main_v29) h1) (congrArg (V c main_v12) h2)))
    (congrArg (V c main_v42) h3)

theorem mem_blk1 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v43).slice (win1_4.rect t)).set ↔ _
  rw [View.set_slice_whole, Rect.mem_set_unit]
  exact Iff.rfl

theorem cover1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 16 ≤ (i 1).val ∧ (i 1).val < win1_4.index t (1 : Fin 2) * 16 + 16; omega

/-- THE SECOND REGION'S RESULT ARRAY is the combination of the arrays it finds. -/
theorem final1 (c : Dev nD) :
    (dat1 (F := Ideal) V c).arrAt 4 cfg1.N = combineAll (V c main_v41) (V c main_v29) (V c main_v12) (V c main_v42) :=
  (dat1 V c).arrAt_eq_of_cover 4 (combineAll (V c main_v41) (V c main_v29) (V c main_v12) (V c main_v42))
    (fun t _ => flushed1 V c t) (cover1)

/-! ## The third region: aggregate plus own row, projected, plus bias -/

theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (1 : Fin 2) = 0
    ∧ win2_5.index t (0 : Fin 2) ≤ 19 :=
  (by decide +kernel : ∀ t : Fin grid2.N, _)

theorem idx_onto2 : ∀ q0 : Fin 20, ∃ t : Fin cfg2.N, win2_5.index t = ![q0.val, 0] :=
  (by decide +kernel : ∀ q0 : Fin 20, ∃ t : Fin grid2.N, win2_5.index t = ![q0.val, 0])

/-- What point t writes back is block t of the projected aggregate of the arrays the region finds. -/
theorem flushed2 (c : Dev nD) (t : Fin cfg2.N) :
    (dat2 (F := Ideal) V c).flushed 5 t
      = ((cfg2.win 5).blk t).view.read (Elt Ideal)
          (aggProjectAll (V c main_v55) (V c main_v43) (V c main_v12) (V c main_arg4) (V c main_v56)) := by
  show (cfg2.win 5).cut (grid2.coords t) ((dat2 V c).after 5 t) = _
  rw [after2_5]
  unfold out2_5
  rw [View.canon_unit_zero hz]
  simp only [View.ld_unit_zero (S := S5000x16) hz, View.ld_unit_zero (S := S5000x1) hz, View.ld_unit_zero (S := S16x40) hz,
    View.ld_unit_zero (S := S1x40) hz]
  obtain ⟨e0, e1, e2, e3, e4, e5, e6, e7, e8, e9, e10, e11⟩ := idx_facts2 t
  funext j
  obtain ⟨p, q, rfl⟩ : ∃ (p : Fin 5000) (q : Fin 40), j = ix2 p q := ⟨j 0, j 1, eq_ix2 j⟩
  refine (aggProject_apply _ _ _ _ _ p q).trans ?_
  show _ = aggProjectAll (V c main_v55) (V c main_v43) (V c main_v12) (V c main_arg4) (V c main_v56)
    (((cfg2.win 5).blk t).view.emb (ix2 p q))
  unfold aggProjectAll
  have h0 : ∀ k : Fin 16, ((cfg2.win 0).blk t).view.emb (ix2 p k)
      = ix2 ((((cfg2.win 5).blk t).view.emb (ix2 p q)) 0) k := fun k => by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 16 + 1 * k.val = k.val; omega
  have h1 : ∀ k : Fin 16, ((cfg2.win 1).blk t).view.emb (ix2 p k)
      = ix2 ((((cfg2.win 5).blk t).view.emb (ix2 p q)) 0) k := fun k => by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 16 + 1 * k.val = k.val; omega
  have h2 : ((cfg2.win 2).blk t).view.emb (ix2 p (0 : Fin 1))
      = ix2 ((((cfg2.win 5).blk t).view.emb (ix2 p q)) 0) (0 : Fin 1) := by
    funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 1 + 1 * 0 = 0; omega
  have h3 : ∀ k : Fin 16, ((cfg2.win 3).blk t).view.emb (ix2 k q)
      = ix2 k ((((cfg2.win 5).blk t).view.emb (ix2 p q)) 1) := fun k => by
    funext a; apply Fin.ext
    match a with
    | ⟨0, _⟩ => show win2_3.index t (0 : Fin 2) * 16 + 1 * k.val = k.val; omega
    | ⟨1, _⟩ => show win2_3.index t (1 : Fin 2) * 40 + 1 * q.val = win2_5.index t (1 : Fin 2) * 40 + 1 * q.val; omega
  have h4 : ((cfg2.win 4).blk t).view.emb (ix2 (0 : Fin 1) q)
      = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 40 + 1 * q.val = win2_5.index t (1 : Fin 2) * 40 + 1 * q.val; omega
  refine congrArg₂ (fun (x y : EReal) => x + y) (Finset.sum_congr rfl fun k _ => ?_) (congrArg (V c main_v56) h4)
  exact congrArg₂ (fun (x y : EReal) => x * y)
    (congrArg₂ (fun (x y : EReal) => x + y) (congrArg (V c main_v55) (h0 k))
      (congrArg₂ (fun (x y : EReal) => x * y) (congrArg (V c main_v43) (h1 k)) (congrArg (V c main_v12) h2)))
    (congrArg (V c main_arg4) (h3 k))

theorem mem_blk2 (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v57).slice (win2_5.rect t)).set ↔ _
  rw [View.set_slice_whole, Rect.mem_set_unit]
  exact Iff.rfl

theorem cover2 (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 40 ≤ (i 1).val ∧ (i 1).val < win2_5.index t (1 : Fin 2) * 40 + 40; omega

/-- THE THIRD REGION'S RESULT ARRAY is the projected aggregate of the arrays it finds. -/
theorem final2 (c : Dev nD) :
    (dat2 (F := Ideal) V c).arrAt 5 cfg2.N
      = aggProjectAll (V c main_v55) (V c main_v43) (V c main_v12) (V c main_arg4) (V c main_v56) :=
  (dat2 V c).arrAt_eq_of_cover 5 (aggProjectAll (V c main_v55) (V c main_v43) (V c main_v12) (V c main_arg4) (V c main_v56))
    (fun t _ => flushed2 V c t) (cover2)

end Cert.KernelIdeal.KRegion

end
-- ==== Proof.LibRowGatherScatter.lean ====
/-
  A row gather and a row scatter-add of a rank-2 array, each read at one index, for any extents: a table of
  N rows and C columns, E edges, each edge carrying one row index.

  The gather x[idx] reads, for edge e and column c, the table at row idx[e] — the index word read as a
  signed integer and clamped into [0, N − 1] — and column c. The scatter-add x.at[idx].add(upd) adds to the
  table's element (n, c) every update element (e, c) whose edge's index, read signed and NOT clamped, is
  exactly n; an edge whose index is outside [0, N) contributes nothing. Both are obtained by evaluating the
  gather's operand index and the scatter's result index on the two axes.
-/
import Idealize.ShloMosaic.Lib.ValueIdx

noncomputable section

open scoped BigOperators

namespace Cert.RowGatherScatter

open Idealize.ShloMosaic Idealize.ShloMosaic.ValueIdx

/-! ## The row gather -/

/-- x[idx] of a table [N, C] at E row indices: offset_dims [1], collapsed_slice_dims [0], start_index_map [0],
    index_vector_dim 1, slice_sizes [1, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its start index, read signed and clamped into [0, N-1]. -/
def gatherRow {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT (e, c): the table at the row edge e's index names (signed, clamped) and column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherRow N hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from
        (by decide : (1 : Fin 2) ∉ [(0 : Fin 2)]))]
    have hoff : (rowGatherDims N E C wf).offCoord (ix2 e c) 1 = c.val := by
      unfold GatherDims.offCoord
      rw [dif_pos (show (1 : Fin 2) ∈ (rowGatherDims N E C wf).sKept from
        (GatherDims.mem_sKept _ _).mpr ⟨(by decide : (1 : Fin 2) ∉ [(0 : Fin 2)]), List.not_mem_nil⟩)]
      rfl
    rw [hst, hoff]
    simp

/-! ## The row scatter-add -/

/-- x.at[idx].add(upd) on rows: update_window_dims [1], inserted_window_dims [0], scatter_dims_to_operand_dims [0],
    index_vector_dim 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the row axis the window starts at the edge's index word, read signed. -/
theorem rowScatter_start0 (idx : IVec ⟨2, ![E, 1]⟩ w) (e : Fin E) (c' : Fin C) :
    (rowScatterDims N E C wf).start (ix2 e c') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index names, the window starts at 0. -/
theorem rowScatter_start1 (idx : IVec ⟨2, ![E, 1]⟩ w) (e : Fin E) (c' : Fin C) :
    (rowScatterDims N E C wf).start (ix2 e c') idx 1 = 0 := by
  unfold ScatterDims.start
  rw [dif_neg (show (1 : Fin 2) ∉ (rowScatterDims N E C wf).scatterDimsToOperandDims from
    (by decide : (1 : Fin 2) ∉ [(0 : Fin 2)]))]

/-- The row axis is an inserted one: its window coordinate is 0. -/
theorem rowScatter_window0 (e : Fin E) (c' : Fin C) :
    (rowScatterDims N E C wf).window (ix2 e c') 0 = 0 := by
  unfold ScatterDims.window
  rw [dif_neg (show (0 : Fin 2) ∉ (rowScatterDims N E C wf).sKept from
    (by decide : (0 : Fin 2) ∉ (List.finRange 2).filter (· ∉ [(0 : Fin 2)])))]

/-- The column axis is the one window axis: its window coordinate is the update's column. -/
theorem rowScatter_window1 (e : Fin E) (c' : Fin C) :
    (rowScatterDims N E C wf).window (ix2 e c') 1 = c'.val := by
  unfold ScatterDims.window
  rw [dif_pos (show (1 : Fin 2) ∈ (rowScatterDims N E C wf).sKept from
    (by decide : (1 : Fin 2) ∈ (List.finRange 2).filter (· ∉ [(0 : Fin 2)])))]
  rfl

/-- Where update (e, c') lands: row = the scatter index of e read SIGNED and NOT clamped (dropped when outside
    [0, N)), column c'. -/
theorem rowScatter_resultIdx_eq_some_iff (idx : IVec ⟨2, ![E, 1]⟩ w) (e : Fin E) (c' : Fin C) (n : Fin N) (c : Fin C) :
    (rowScatterDims N E C wf).resultIdx? (ix2 e c') idx = some (ix2 n c)
      ↔ ((idx (ix2 e (0 : Fin 1))).toInt = (n.val : Int) ∧ c' = c) := by
  have hs0 := rowScatter_start0 wf idx e c'
  have hs1 := rowScatter_start1 wf idx e c'
  have hw0 := rowScatter_window0 wf e c'
  have hw1 := rowScatter_window1 wf e c'
  have hn := n.isLt
  have hc' := c'.isLt
  unfold ScatterDims.resultIdx?
  split
  · rename_i h
    rw [Option.some.injEq]
    constructor
    · intro heq
      have h0 := congrArg Fin.val (congrFun heq 0)
      have h1 := congrArg Fin.val (congrFun heq 1)
      have b0 := (h 0).1
      simp only [hs0, hw0] at h0 b0
      simp only [hs1, hw1] at h1
      refine ⟨?_, Fin.ext ?_⟩
      · change ((idx (ix2 e (0 : Fin 1))).toInt + ((0 : Nat) : Int)).toNat = n.val at h0
        omega
      · change ((0 : Int) + (c'.val : Int)).toNat = c.val at h1
        omega
    · rintro ⟨h0, rfl⟩
      funext a
      refine Fin.ext ?_
      match a with
      | ⟨0, _⟩ =>
        show ((rowScatterDims N E C wf).start (ix2 e c') idx 0 + ((rowScatterDims N E C wf).window (ix2 e c') 0 : Int)).toNat = n.val
        rw [hs0, hw0, h0]; omega
      | ⟨1, _⟩ =>
        show ((rowScatterDims N E C wf).start (ix2 e c') idx 1 + ((rowScatterDims N E C wf).window (ix2 e c') 1 : Int)).toNat = c'.val
        rw [hs1, hw1]; omega
  · rename_i h
    constructor
    · intro heq; exact absurd heq (by simp)
    · rintro ⟨h0, rfl⟩
      refine absurd (fun a => ?_) h
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0, h0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

end Scatter

/-- THE ROW SCATTER-ADD AT (n, c), at the ideal instance: the operand's element plus the sum, over the edges whose
    index is n, of the update's element in column c. -/
theorem rowScatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : Int)),
          upd (ix2 e c) := by
  show Ideal.hostScatterAdd (rowScatterDims N E C wf) x idx upd (ix2 n c) = _
  unfold Ideal.hostScatterAdd
  congr 1
  refine Finset.sum_nbij' (fun j => (j 0 : Fin E)) (fun e => ix2 e c) ?_ ?_ ?_ ?_ ?_
  · intro j hj
    have h := (Finset.mem_filter.mp hj).2
    rw [eq_ix2 j] at h
    exact Finset.mem_filter.mpr ⟨Finset.mem_univ _, ((rowScatter_resultIdx_eq_some_iff wf idx _ _ n c).mp h).1⟩
  · intro e he
    have h := (Finset.mem_filter.mp he).2
    exact Finset.mem_filter.mpr ⟨Finset.mem_univ _, (rowScatter_resultIdx_eq_some_iff wf idx e c n c).mpr ⟨h, rfl⟩⟩
  · intro j hj
    have h := (Finset.mem_filter.mp hj).2
    rw [eq_ix2 j] at h
    have hc := ((rowScatter_resultIdx_eq_some_iff wf idx _ _ n c).mp h).2
    subst hc
    exact (eq_ix2 j).symm
  · intro e _
    rfl
  · intro j hj
    have h := (Finset.mem_filter.mp hj).2
    rw [eq_ix2 j] at h
    have hc := ((rowScatter_resultIdx_eq_some_iff wf idx _ _ n c).mp h).2
    subst hc
    exact congrArg upd (eq_ix2 j)

/-! ## The flat scatter-add: a vector of E updates added into a vector of N entries -/

/-- x.at[idx].add(upd) for a flat table [N] and a flat update vector [E], the indices kept as a column [E, 1]:
    update_window_dims [], inserted_window_dims [0], scatter_dims_to_operand_dims [0], index_vector_dim 1. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the table's one axis the window starts at the edge's index word, read signed. -/
theorem vecScatter_start0 {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The table's one axis is an inserted one: its window coordinate is 0. -/
theorem vecScatter_window0 {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (show (0 : Fin 1) ∉ (vecScatterDims N E wf).sKept from
    (by decide : (0 : Fin 1) ∉ (List.finRange 1).filter (· ∉ [(0 : Fin 1)])))]

/-- Where update e lands: the entry its scatter index names, read SIGNED and NOT clamped (dropped when outside
    [0, N)). -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : Int) := by
  have hs0 := vecScatter_start0 wf idx e
  have hw0 := vecScatter_window0 wf e
  have hn := n.isLt
  unfold ScatterDims.resultIdx?
  split
  · rename_i h
    rw [Option.some.injEq]
    constructor
    · intro heq
      have h0 := congrArg Fin.val (congrFun heq 0)
      have b0 := (h 0).1
      simp only [hs0, hw0] at h0 b0
      change ((idx (ix2 e (0 : Fin 1))).toInt + ((0 : Nat) : Int)).toNat = n.val at h0
      omega
    · intro h0
      funext a
      refine Fin.ext ?_
      match a with
      | ⟨0, _⟩ =>
        show ((vecScatterDims N E wf).start (ix1 e) idx 0 + ((vecScatterDims N E wf).window (ix1 e) 0 : Int)).toNat = n.val
        rw [hs0, hw0, h0]; omega
  · rename_i h
    constructor
    · intro heq; exact absurd heq (by simp)
    · intro h0
      refine absurd (fun a => ?_) h
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0, h0]; omega

/-- THE FLAT SCATTER-ADD AT n, at the ideal instance: the operand's entry plus the sum, over the edges whose index
    is n, of the update's entry. -/
theorem vecScatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatterDims N E wf) x idx upd (ix1 n)
      = x (ix1 n) + ∑ e ∈ Finset.univ.filter (fun e : Fin E => (idx (ix2 e (0 : Fin 1))).toInt = (n.val : Int)),
          upd (ix1 e) := by
  show Ideal.hostScatterAdd (vecScatterDims N E wf) x idx upd (ix1 n) = _
  unfold Ideal.hostScatterAdd
  congr 1
  refine Finset.sum_nbij' (fun j => (j 0 : Fin E)) (fun e => ix1 e) ?_ ?_ ?_ ?_ ?_
  · intro j hj
    have h := (Finset.mem_filter.mp hj).2
    rw [eq_ix1 j] at h
    exact Finset.mem_filter.mpr ⟨Finset.mem_univ _, (vecScatter_resultIdx_eq_some_iff wf idx _ n).mp h⟩
  · intro e he
    have h := (Finset.mem_filter.mp he).2
    exact Finset.mem_filter.mpr ⟨Finset.mem_univ _, (vecScatter_resultIdx_eq_some_iff wf idx e n).mpr h⟩
  · intro j _
    exact (eq_ix1 j).symm
  · intro e _
    rfl
  · intro j _
    exact congrArg upd (eq_ix1 j)

end Cert.RowGatherScatter

end
-- ==== Proof.Shared.lean ====
/-
  The graph as both programs read it, and the edge aggregation read at one entry.

  Both programs derive from the edge list (a 2 x 3200000 array of integer words) the same four things, by the same
  operations: for each edge the table row it reads (its source word, a negative word shifted up by the node count, then
  clamped into range), for each node the set of edges that land on it (the edges whose destination word, read signed,
  is the node's number — an out-of-range word lands nowhere), for each edge a coefficient, and for each node a
  self-loop factor.  The edge aggregation of a table T (N rows) is the array whose row n is the sum, over the edges
  landing on n, of T's row at the edge's source scaled by the edge's coefficient; here it is read at one entry, for
  tables of 16 and of 40 columns.
-/
import proofs.«155849_j41059887350377_2_alg».proof.Proof.Gen.ReferenceIdeal.Read
import proofs.«155849_j41059887350377_2_alg».proof.Proof.LibRowGatherScatter
import Idealize.ShloMosaic.PureOps.Ideal.Laws
import Idealize.ShloMosaic.Lib.ValueIdx

noncomputable section

open scoped BigOperators

namespace Cert.Gcn

open Cert.ReferenceIdeal Cert.ReferenceIdeal.Read Cert.ReferenceIdeal.Facts₀
open Idealize.ShloMosaic Idealize.ShloMosaic.ValueIdx

/-- The edge list's contents. -/
abbrev Edges := (⟨S2x3200000, .i32⟩ : BufTy).Contents (Elt Ideal)

/-- A table of 16 columns, and one of 40. -/
abbrev Tab16 := (⟨S100000x16, .f32⟩ : BufTy).Contents (Elt Ideal)
abbrev Tab40 := (⟨S100000x40, .f32⟩ : BufTy).Contents (Elt Ideal)

variable (x1 : Edges)

/-- The table row edge `e` reads. -/
def src (e : Fin 3200000) : Fin 100000 :=
  Cert.RowGatherScatter.gatherRow 100000 (by decide) (val_main_v32 (F := Ideal) x1) e

/-- The edges that land on node `n`. -/
def into (n : Fin 100000) : Finset (Fin 3200000) :=
  Finset.univ.filter fun e : Fin 3200000 => ((val_main_v38 (F := Ideal) x1) (ix2 e (0 : Fin 1))).toInt = (n.val : Int)

/-- Edge `e`'s coefficient. -/
def coef (e : Fin 3200000) : EReal := val_main_v26 (F := Ideal) x1 (ix1 e)

/-- Node `n`'s self-loop factor. -/
def selfw (n : Fin 100000) : EReal := val_main_v40 (F := Ideal) x1 (ix1 n)

/-- The edge aggregation of a 16-column table, as the host operations spell it: gather the source rows, scale each
    by its edge's coefficient laid along the row, scatter-add at the destinations into zeros. -/
def agg16 (T : Tab16) : Tab16 :=
  Host.scatterAdd (F := Ideal) (φ := .f32) scatter_S100000x16_S3200000x1_S3200000x16_1_0_0_1 (val_main_v37 (F := Ideal))
    (val_main_v38 (F := Ideal) x1)
    (mulf (F := Ideal) (φ := .f32) (Host.gather gather_S100000x16_S3200000x1_S3200000x16_1_0_n_n_0_1_116 T (val_main_v32 (F := Ideal) x1))
      (val_main_v35 (F := Ideal) x1))

/-- The same of a 40-column table. -/
def agg40 (T : Tab40) : Tab40 :=
  Host.scatterAdd (F := Ideal) (φ := .f32) scatter_S100000x40_S3200000x1_S3200000x40_1_0_0_1 (val_main_v75 (F := Ideal))
    (val_main_v76 (F := Ideal) x1)
    (mulf (F := Ideal) (φ := .f32) (Host.gather gather_S100000x40_S3200000x1_S3200000x40_1_0_n_n_0_1_140 T (val_main_v70 (F := Ideal) x1))
      (val_main_v73 (F := Ideal) x1))

/-! The second layer's copies of the graph data are the first layer's: the same operations of the edge list. -/
theorem dst2_eq : val_main_v76 (F := Ideal) x1 = val_main_v38 (F := Ideal) x1 := rfl
theorem src2_eq : val_main_v70 (F := Ideal) x1 = val_main_v32 (F := Ideal) x1 := rfl
theorem coef2_eq : val_main_v64 (F := Ideal) x1 = val_main_v26 (F := Ideal) x1 := rfl
theorem selfw2_eq : val_main_v78 (F := Ideal) x1 = val_main_v40 (F := Ideal) x1 := rfl

/-- The coefficient laid along 16 lanes, read at an entry. -/
theorem coef16_apply (e : Fin 3200000) (k : Fin 16) : (val_main_v35 (F := Ideal) x1 (ix2 e k) : EReal) = coef x1 e := by
  rw [val_main_v35_apply, val_main_v34_apply]
  exact congrArg (val_main_v26 (F := Ideal) x1) (funext fun a => Fin.ext (by match a with | ⟨0, _⟩ => rfl))

/-- The coefficient laid along 40 lanes, read at an entry. -/
theorem coef40_apply (e : Fin 3200000) (k : Fin 40) : (val_main_v73 (F := Ideal) x1 (ix2 e k) : EReal) = coef x1 e := by
  rw [val_main_v73_apply, val_main_v72_apply, coef2_eq]
  exact congrArg (val_main_v26 (F := Ideal) x1) (funext fun a => Fin.ext (by match a with | ⟨0, _⟩ => rfl))

/-- THE AGGREGATION OF A 16-COLUMN TABLE AT (n, k): zero plus the sum over the edges landing on n of the table at
    (the edge's source, k) times the edge's coefficient. -/
theorem agg16_apply (T : Tab16) (n : Fin 100000) (k : Fin 16) :
    agg16 x1 T (ix2 n k) = 0 + ∑ e ∈ into x1 n, (T (ix2 (src x1 e) k) : EReal) * coef x1 e := by
  show Host.scatterAdd (F := Ideal) (φ := .f32) scatter_S100000x16_S3200000x1_S3200000x16_1_0_0_1 (val_main_v37 (F := Ideal))
    (val_main_v38 (F := Ideal) x1)
    (mulf (F := Ideal) (φ := .f32) (Host.gather gather_S100000x16_S3200000x1_S3200000x16_1_0_n_n_0_1_116 T (val_main_v32 (F := Ideal) x1))
      (val_main_v35 (F := Ideal) x1)) (ix2 n k) = _
  have h1 := Cert.RowGatherScatter.rowScatterAdd_apply (N := 100000) (E := 3200000) (C := 16) (w := 32) (φ := .f32)
    scatter_S100000x16_S3200000x1_S3200000x16_1_0_0_1_wf (val_main_v37 (F := Ideal)) (val_main_v38 (F := Ideal) x1)
    (mulf (F := Ideal) (φ := .f32) (Host.gather gather_S100000x16_S3200000x1_S3200000x16_1_0_n_n_0_1_116 T (val_main_v32 (F := Ideal) x1))
      (val_main_v35 (F := Ideal) x1)) n k
  refine h1.trans (congrArg₂ (fun (a b : EReal) => a + b) ?_ ?_)
  · rw [val_main_v37_apply, val_main_cst_7_apply]
    exact Ideal.ofBits_zero_f32
  · refine Finset.sum_congr rfl fun e _ => ?_
    show (Host.gather gather_S100000x16_S3200000x1_S3200000x16_1_0_n_n_0_1_116 T (val_main_v32 (F := Ideal) x1) (ix2 e k) : EReal)
      * (val_main_v35 (F := Ideal) x1 (ix2 e k) : EReal) = _
    rw [coef16_apply]
    exact congrArg (· * coef x1 e) (Cert.RowGatherScatter.rowGather_apply (N := 100000) (E := 3200000) (C := 16) (w := 32) (by decide)
      gather_S100000x16_S3200000x1_S3200000x16_1_0_n_n_0_1_116_wf T (val_main_v32 (F := Ideal) x1) e k)

/-- THE AGGREGATION OF A 40-COLUMN TABLE AT (n, k): the same sum. -/
theorem agg40_apply (T : Tab40) (n : Fin 100000) (k : Fin 40) :
    agg40 x1 T (ix2 n k) = 0 + ∑ e ∈ into x1 n, (T (ix2 (src x1 e) k) : EReal) * coef x1 e := by
  show Host.scatterAdd (F := Ideal) (φ := .f32) scatter_S100000x40_S3200000x1_S3200000x40_1_0_0_1 (val_main_v75 (F := Ideal))
    (val_main_v38 (F := Ideal) x1)
    (mulf (F := Ideal) (φ := .f32) (Host.gather gather_S100000x40_S3200000x1_S3200000x40_1_0_n_n_0_1_140 T (val_main_v32 (F := Ideal) x1))
      (val_main_v73 (F := Ideal) x1)) (ix2 n k) = _
  have h1 := Cert.RowGatherScatter.rowScatterAdd_apply (N := 100000) (E := 3200000) (C := 40) (w := 32) (φ := .f32)
    scatter_S100000x40_S3200000x1_S3200000x40_1_0_0_1_wf (val_main_v75 (F := Ideal)) (val_main_v38 (F := Ideal) x1)
    (mulf (F := Ideal) (φ := .f32) (Host.gather gather_S100000x40_S3200000x1_S3200000x40_1_0_n_n_0_1_140 T (val_main_v32 (F := Ideal) x1))
      (val_main_v73 (F := Ideal) x1)) n k
  refine h1.trans (congrArg₂ (fun (a b : EReal) => a + b) ?_ ?_)
  · rw [val_main_v75_apply, val_main_cst_14_apply]
    exact Ideal.ofBits_zero_f32
  · refine Finset.sum_congr rfl fun e _ => ?_
    show (Host.gather gather_S100000x40_S3200000x1_S3200000x40_1_0_n_n_0_1_140 T (val_main_v32 (F := Ideal) x1) (ix2 e k) : EReal)
      * (val_main_v73 (F := Ideal) x1 (ix2 e k) : EReal) = _
    rw [coef40_apply]
    exact congrArg (· * coef x1 e) (Cert.RowGatherScatter.rowGather_apply (N := 100000) (E := 3200000) (C := 40) (w := 32) (by decide)
      gather_S100000x40_S3200000x1_S3200000x40_1_0_n_n_0_1_140_wf T (val_main_v32 (F := Ideal) x1) e k)

end Cert.Gcn

end
-- ==== Proof.KHost.lean ====
/-
  The buffer contents at each boundary between the kernel program's six segments, read at the buffers that matter,
  and with them the program's result as one term of its arguments.

  The first stretch of host operations derives the graph data from the edge list; the first region projects the
  features; the second stretch aggregates the projected features over the edges and lays the first bias as a row; the
  second region combines them into the hidden layer; the third stretch aggregates the hidden layer and lays the second
  bias as a row; the third region projects the aggregate.  A buffer that a segment does not write is carried unchanged
  across it.
-/
import proofs.«155849_j41059887350377_2_alg».proof.Proof.Gen.KernelIdeal.Frame
import proofs.«155849_j41059887350377_2_alg».proof.Proof.KRegion
import proofs.«155849_j41059887350377_2_alg».proof.Proof.Shared
import Idealize.ShloMosaic.Lib.StableHlo.Run

set_option maxRecDepth 16384

noncomputable section

open scoped BigOperators

namespace Cert.KernelIdeal.KHost

open Cert.KernelIdeal Cert.KernelIdeal.Gen Cert.KernelIdeal.KRegion
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The self-loop factors as a column. -/
def selfCol (x1 : Cert.Gcn.Edges) : S100000x1.Idx → EReal :=
  shapeCast S100000x1 (Cert.ReferenceIdeal.Read.val_main_v40 (F := Ideal) x1) Facts₀.shapeCasts_S100000_S100000x1

/-- The first bias as a row. -/
def biasRow16 (x3 : S16.Idx → EReal) : S1x16.Idx → EReal := shapeCast S1x16 x3 Facts₀.shapeCasts_S16_S1x16

/-- The second bias as a row. -/
def biasRow40 (x5 : S40.Idx → EReal) : S1x40.Idx → EReal := shapeCast S1x40 x5 Facts₀.shapeCasts_S40_S1x40

/-- The projected features. -/
def projected : S100000x16.Idx → EReal := projectAll (m ((c : Thread nD τ).loc main_arg0)) (m ((c : Thread nD τ).loc main_arg2))

/-- The hidden layer. -/
def hidden : S100000x16.Idx → EReal :=
  combineAll (Cert.Gcn.agg16 (m ((c : Thread nD τ).loc main_arg1)) (projected m c)) (projected m c) (selfCol (m ((c : Thread nD τ).loc main_arg1))) (biasRow16 (m ((c : Thread nD τ).loc main_arg3)))

/-- The result. -/
def result : S100000x40.Idx → EReal :=
  aggProjectAll (Cert.Gcn.agg16 (m ((c : Thread nD τ).loc main_arg1)) (hidden m c)) (hidden m c) (selfCol (m ((c : Thread nD τ).loc main_arg1))) (m ((c : Thread nD τ).loc main_arg4)) (biasRow40 (m ((c : Thread nD τ).loc main_arg5)))

/-! ## After the first stretch of host operations -/

theorem W1_arg0 : W1 m ρ c (Proc.devRef .tc main_arg0) = m ((c : Thread nD τ).loc main_arg0) := by
  dsimp only [W1, hostOps0]; after_results_simp <;> rfl
theorem W1_arg2 : W1 m ρ c (Proc.devRef .tc main_arg2) = m ((c : Thread nD τ).loc main_arg2) := by
  dsimp only [W1, hostOps0]; after_results_simp <;> rfl
theorem W1_arg3 : W1 m ρ c (Proc.devRef .tc main_arg3) = m ((c : Thread nD τ).loc main_arg3) := by
  dsimp only [W1, hostOps0]; after_results_simp <;> rfl
theorem W1_arg4 : W1 m ρ c (Proc.devRef .tc main_arg4) = m ((c : Thread nD τ).loc main_arg4) := by
  dsimp only [W1, hostOps0]; after_results_simp <;> rfl
theorem W1_arg5 : W1 m ρ c (Proc.devRef .tc main_arg5) = m ((c : Thread nD τ).loc main_arg5) := by
  dsimp only [W1, hostOps0]; after_results_simp <;> rfl
theorem W1_v1 : W1 m ρ c (Proc.devRef .tc main_v1) = Cert.ReferenceIdeal.Read.val_main_v1 (F := Ideal) (m ((c : Thread nD τ).loc main_arg1)) := by
  dsimp only [W1, hostOps0]; after_results_simp <;> rfl
theorem W1_v3 : W1 m ρ c (Proc.devRef .tc main_v3) = Cert.ReferenceIdeal.Read.val_main_v3 (F := Ideal) (m ((c : Thread nD τ).loc main_arg1)) := by
  dsimp only [W1, hostOps0]; after_results_simp <;> rfl
theorem W1_v28 : W1 m ρ c (Proc.devRef .tc main_v28) = Cert.ReferenceIdeal.Read.val_main_v34 (F := Ideal) (m ((c : Thread nD τ).loc main_arg1)) := by
  dsimp only [W1, hostOps0]; after_results_simp <;> rfl
theorem W1_v12 : W1 m ρ c (Proc.devRef .tc main_v12) = selfCol (m ((c : Thread nD τ).loc main_arg1)) := by
  dsimp only [W1, hostOps0]; after_results_simp <;> rfl

/-! ## After the first region -/

theorem W2_v29 : W2 m ρ c (Proc.devRef .tc main_v29) = projected m c :=
  (W2_arr m ρ c 2).trans ((final0 (V1 m ρ) c).trans (congrArg₂ projectAll (W1_arg0 m ρ c) (W1_arg2 m ρ c)))
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v28 : W2 m ρ c (Proc.devRef .tc main_v28) = Cert.ReferenceIdeal.Read.val_main_v34 (F := Ideal) (m ((c : Thread nD τ).loc main_arg1)) :=
  (W2_of_ne m ρ c main_v28 (by decide)).trans (W1_v28 m ρ c)
theorem W2_v12 : W2 m ρ c (Proc.devRef .tc main_v12) = selfCol (m ((c : Thread nD τ).loc main_arg1)) :=
  (W2_of_ne m ρ c main_v12 (by decide)).trans (W1_v12 m ρ c)

/-! ## After the second stretch of host operations -/

theorem W3_v41 : W3 m ρ c (Proc.devRef .tc main_v41) = Cert.Gcn.agg16 (m ((c : Thread nD τ).loc main_arg1)) (projected m c) := by
  dsimp only [W3, hostOps1]; after_results_simp
  rw [W2_v29, W2_v1, W2_v3, W2_v28]
  rfl
theorem W3_v29 : W3 m ρ c (Proc.devRef .tc main_v29) = projected m c := by
  dsimp only [W3, hostOps1]; after_results_simp
  exact W2_v29 m ρ c
theorem W3_v12 : W3 m ρ c (Proc.devRef .tc main_v12) = selfCol (m ((c : Thread nD τ).loc main_arg1)) := by
  dsimp only [W3, hostOps1]; after_results_simp
  exact W2_v12 m ρ c
theorem W3_v42 : W3 m ρ c (Proc.devRef .tc main_v42) = biasRow16 (m ((c : Thread nD τ).loc main_arg3)) := by
  dsimp only [W3, hostOps1]; after_results_simp
  rw [W2_arg3]
  rfl
theorem W3_v1 : W3 m ρ c (Proc.devRef .tc main_v1) = Cert.ReferenceIdeal.Read.val_main_v1 (F := Ideal) (m ((c : Thread nD τ).loc main_arg1)) := by
  dsimp only [W3, hostOps1]; after_results_simp
  exact W2_v1 m ρ c
theorem W3_v3 : W3 m ρ c (Proc.devRef .tc main_v3) = Cert.ReferenceIdeal.Read.val_main_v3 (F := Ideal) (m ((c : Thread nD τ).loc main_arg1)) := by
  dsimp only [W3, hostOps1]; after_results_simp
  exact W2_v3 m ρ c
theorem W3_v28 : W3 m ρ c (Proc.devRef .tc main_v28) = Cert.ReferenceIdeal.Read.val_main_v34 (F := Ideal) (m ((c : Thread nD τ).loc main_arg1)) := by
  dsimp only [W3, hostOps1]; after_results_simp
  exact W2_v28 m ρ c
theorem W3_arg4 : W3 m ρ c (Proc.devRef .tc main_arg4) = m ((c : Thread nD τ).loc main_arg4) := by
  dsimp only [W3, hostOps1]; after_results_simp
  exact W2_arg4 m ρ c
theorem W3_arg5 : W3 m ρ c (Proc.devRef .tc main_arg5) = m ((c : Thread nD τ).loc main_arg5) := by
  dsimp only [W3, hostOps1]; after_results_simp
  exact W2_arg5 m ρ c

/-! ## After the second region -/

theorem W4_v43 : W4 m ρ c (Proc.devRef .tc main_v43) = hidden m c :=
  (W4_arr m ρ c 4).trans ((final1 (V3 m ρ) c).trans (by
    show combineAll (W3 m ρ c (Proc.devRef .tc main_v41)) (W3 m ρ c (Proc.devRef .tc main_v29))
      (W3 m ρ c (Proc.devRef .tc main_v12)) (W3 m ρ c (Proc.devRef .tc main_v42)) = _
    rw [W3_v41, W3_v29, W3_v12, W3_v42]
    rfl))
theorem W4_v12 : W4 m ρ c (Proc.devRef .tc main_v12) = selfCol (m ((c : Thread nD τ).loc main_arg1)) :=
  (W4_arr m ρ c 2).trans (((dat1 (V3 m ρ) c).arrAt_in 2 rfl _).trans ((A_eq1 (V3 m ρ) c 2).trans (W3_v12 m ρ c)))
theorem W4_v1 : W4 m ρ c (Proc.devRef .tc main_v1) = Cert.ReferenceIdeal.Read.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v28 : W4 m ρ c (Proc.devRef .tc main_v28) = Cert.ReferenceIdeal.Read.val_main_v34 (F := Ideal) (m ((c : Thread nD τ).loc main_arg1)) :=
  (W4_of_ne m ρ c main_v28 (by decide)).trans (W3_v28 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## After the third stretch of host operations -/

theorem W5_v55 : W5 m ρ c (Proc.devRef .tc main_v55) = Cert.Gcn.agg16 (m ((c : Thread nD τ).loc main_arg1)) (hidden m c) := by
  dsimp only [W5, hostOps2]; after_results_simp
  rw [W4_v43, W4_v1, W4_v3, W4_v28]
  rfl
theorem W5_v43 : W5 m ρ c (Proc.devRef .tc main_v43) = hidden m c := by
  dsimp only [W5, hostOps2]; after_results_simp
  exact W4_v43 m ρ c
theorem W5_v12 : W5 m ρ c (Proc.devRef .tc main_v12) = selfCol (m ((c : Thread nD τ).loc main_arg1)) := by
  dsimp only [W5, hostOps2]; after_results_simp
  exact W4_v12 m ρ c
theorem W5_arg4 : W5 m ρ c (Proc.devRef .tc main_arg4) = m ((c : Thread nD τ).loc main_arg4) := by
  dsimp only [W5, hostOps2]; after_results_simp
  exact W4_arg4 m ρ c
theorem W5_v56 : W5 m ρ c (Proc.devRef .tc main_v56) = biasRow40 (m ((c : Thread nD τ).loc main_arg5)) := by
  dsimp only [W5, hostOps2]; after_results_simp
  rw [W4_arg5]
  rfl

/-! ## After the third region: the result -/

/-- THE RESULT BUFFER at the last boundary is the projected aggregate of the hidden layer. -/
theorem W6_v57 : W6 m ρ c (Proc.devRef .tc main_v57) = result m c :=
  (W6_arr m ρ c 5).trans ((final2 (V5 m ρ) c).trans (by
    show aggProjectAll (W5 m ρ c (Proc.devRef .tc main_v55)) (W5 m ρ c (Proc.devRef .tc main_v43))
      (W5 m ρ c (Proc.devRef .tc main_v12)) (W5 m ρ c (Proc.devRef .tc main_arg4)) (W5 m ρ c (Proc.devRef .tc main_v56)) = _
    rw [W5_v55, W5_v43, W5_v12, W5_arg4, W5_v56]
    rfl))

end Cert.KernelIdeal.KHost

end
-- ==== Proof.RefSide.lean ====
/-
  The reference program's stages read at one entry, in the vocabulary of the graph.

  The reference computes, in order: the projected features (a matrix product); their edge aggregation; the hidden
  layer max (aggregate + projected * self-loop factor + bias, 0); the hidden layer projected by the second weight matrix;
  the edge aggregation of that; and the result, aggregate + projected * self-loop factor + bias.
-/
import proofs.«155849_j41059887350377_2_alg».proof.Proof.Shared

noncomputable section

open scoped BigOperators

namespace Cert.Gcn

open Cert.ReferenceIdeal Cert.ReferenceIdeal.Read Cert.ReferenceIdeal.Facts₀
open Idealize.ShloMosaic Idealize.ShloMosaic.ValueIdx

variable (x0 : (⟨S100000x512, .f32⟩ : BufTy).Contents (Elt Ideal)) (x1 : Edges)
  (x2 : (⟨S512x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-- The projected features at (n, k): the sum over the 512 features of feature times weight. -/
theorem projected_apply (n : Fin 100000) (k : Fin 16) :
    (val_main_v11 (F := Ideal) x0 x2 (ix2 n k) : EReal) = ∑ j : Fin 512, (x0 (ix2 n j) : EReal) * (x2 (ix2 j k) : EReal) := by
  rw [val_main_v11_apply]
  refine Finset.sum_congr rfl fun j _ => ?_
  exact congrArg₂ (fun (a b : EReal) => a * b)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- The self-loop factor laid along 16 lanes. -/
theorem selfw16_apply (n : Fin 100000) (k : Fin 16) : (val_main_v42 (F := Ideal) x1 (ix2 n k) : EReal) = selfw x1 n := by
  rw [val_main_v42_apply, val_main_v41_apply]
  exact congrArg (val_main_v40 (F := Ideal) x1) (funext fun a => Fin.ext (by match a with | ⟨0, _⟩ => rfl))

/-- The self-loop factor laid along 40 lanes. -/
theorem selfw40_apply (n : Fin 100000) (k : Fin 40) : (val_main_v80 (F := Ideal) x1 (ix2 n k) : EReal) = selfw x1 n := by
  rw [val_main_v80_apply, val_main_v79_apply, selfw2_eq]
  exact congrArg (val_main_v40 (F := Ideal) x1) (funext fun a => Fin.ext (by match a with | ⟨0, _⟩ => rfl))

/-- The first bias laid down the rows. -/
theorem bias16_apply (n : Fin 100000) (k : Fin 16) : (val_main_v46 (F := Ideal) x3 (ix2 n k) : EReal) = x3 (ix1 k) := by
  rw [val_main_v46_apply, val_main_v45_apply]
  exact congrArg x3 (funext fun a => Fin.ext (by match a with | ⟨0, _⟩ => rfl))

/-- The second bias laid down the rows. -/
theorem bias40_apply (n : Fin 100000) (k : Fin 40) : (val_main_v84 (F := Ideal) x5 (ix2 n k) : EReal) = x5 (ix1 k) := by
  rw [val_main_v84_apply, val_main_v83_apply]
  exact congrArg x5 (funext fun a => Fin.ext (by match a with | ⟨0, _⟩ => rfl))

/-- The first layer's aggregate is the edge aggregation of the projected features. -/
theorem aggregated_eq : val_main_v39 (F := Ideal) x0 x1 x2 = agg16 x1 (val_main_v11 (F := Ideal) x0 x2) := rfl

/-- THE HIDDEN LAYER AT (n, k). -/
theorem hidden_apply (n : Fin 100000) (k : Fin 16) :
    (val_main_v48 (F := Ideal) x0 x1 x2 x3 (ix2 n k) : EReal)
      = max (((agg16 x1 (val_main_v11 (F := Ideal) x0 x2) (ix2 n k) : EReal)
          + (val_main_v11 (F := Ideal) x0 x2 (ix2 n k) : EReal) * selfw x1 n) + (x3 (ix1 k) : EReal)) 0 := by
  rw [val_main_v48_apply, val_main_v47_apply, val_main_v44_apply, val_main_v43_apply, val_main_call0_v0_apply,
    val_main_call0_cst_apply, aggregated_eq]
  show max (((agg16 x1 (val_main_v11 (F := Ideal) x0 x2) (ix2 n k) : EReal)
      + (val_main_v11 (F := Ideal) x0 x2 (ix2 n k) : EReal) * (val_main_v42 (F := Ideal) x1 (ix2 n k) : EReal))
      + (val_main_v46 (F := Ideal) x3 (ix2 n k) : EReal)) (Ideal.ofBits .f32 0x00000000#32) = _
  rw [selfw16_apply, bias16_apply, Ideal.ofBits_zero_f32]

/-- The hidden layer projected by the second weight matrix, at (r, c). -/
theorem projected2_apply (r : Fin 100000) (c : Fin 40) :
    (val_main_v49 (F := Ideal) x0 x1 x2 x3 x4 (ix2 r c) : EReal)
      = ∑ k : Fin 16, (val_main_v48 (F := Ideal) x0 x1 x2 x3 (ix2 r k) : EReal) * (x4 (ix2 k c) : EReal) := by
  rw [val_main_v49_apply]
  refine Finset.sum_congr rfl fun k _ => ?_
  exact congrArg₂ (fun (a b : EReal) => a * b)
    (congrArg (val_main_v48 (F := Ideal) x0 x1 x2 x3) (funext fun a => Fin.ext (by match a with | ⟨0, _⟩ => rfl | ⟨1, _⟩ => rfl)))
    (congrArg x4 (funext fun a => Fin.ext (by match a with | ⟨0, _⟩ => rfl | ⟨1, _⟩ => rfl)))

/-- The second layer's aggregate is the edge aggregation of the projected hidden layer. -/
theorem aggregated2_eq : val_main_v77 (F := Ideal) x0 x1 x2 x3 x4 = agg40 x1 (val_main_v49 (F := Ideal) x0 x1 x2 x3 x4) := rfl

/-- THE REFERENCE'S RESULT AT (n, c). -/
theorem result_apply (n : Fin 100000) (c : Fin 40) :
    (val_main_v85 (F := Ideal) x0 x1 x2 x3 x4 x5 (ix2 n c) : EReal)
      = (((agg40 x1 (val_main_v49 (F := Ideal) x0 x1 x2 x3 x4) (ix2 n c) : EReal)
          + (val_main_v49 (F := Ideal) x0 x1 x2 x3 x4 (ix2 n c) : EReal) * selfw x1 n)) + (x5 (ix1 c) : EReal) := by
  rw [val_main_v85_apply, val_main_v82_apply, val_main_v81_apply, aggregated2_eq]
  show (((agg40 x1 (val_main_v49 (F := Ideal) x0 x1 x2 x3 x4) (ix2 n c) : EReal)
      + (val_main_v49 (F := Ideal) x0 x1 x2 x3 x4 (ix2 n c) : EReal) * (val_main_v80 (F := Ideal) x1 (ix2 n c) : EReal)))
      + (val_main_v84 (F := Ideal) x5 (ix2 n c) : EReal) = _
  rw [selfw40_apply, bias40_apply]

end Cert.Gcn

end
-- ==== Proof.LibVecGather.lean ====
/-
  A flat gather read at one index, for any extents: a table of N entries, E edges, each edge carrying one index.

  The gather x[idx] of a flat table x : [N] at E indices kept as a column [E, 1] reads, for edge e, the table at
  idx[e] — the index word read as a signed integer and clamped into [0, N − 1]. It is obtained by evaluating the
  gather's operand index on the table's one axis: the axis is collapsed (no offset), carries no batch coordinate,
  and its start is the edge's index word.
-/
import Idealize.ShloMosaic.Lib.ValueIdx

noncomputable section

namespace Cert.VecGather

open Idealize.ShloMosaic Idealize.ShloMosaic.ValueIdx

/-- x[idx] of a flat table [N] at E indices kept as a column [E, 1]: offset_dims [], collapsed_slice_dims [0],
    start_index_map [0], index_vector_dim 1, slice_sizes [1]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The table entry edge e reads: its index word, read signed and clamped into [0, N-1]. -/
def gatherPos {E w : Nat} (N : Nat) (hN : 0 < N) (idx : IVec ⟨2, ![E, 1]⟩ w) (e : Fin E) : Fin N :=
  ⟨min (idx (ix2 e (0 : Fin 1))).toInt.toNat (N - 1), by omega⟩

/-- THE FLAT GATHER READ AT e: the table at the entry edge e's index names (signed, clamped). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherPos N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.VecGather

end
-- ==== Proof.LibGcnLaw.lean ====
/-
  The algebra that joins the two spellings of a graph-convolution layer, on the extended reals.

  An extended real is called real here when it is the image of a real number.  Real extended reals are closed under
  sums, products, finite sums and maxima, and on them the extended reals' arithmetic is the real numbers' own, so
  multiplication distributes over addition.  The law: aggregating the rows of a table over a node's incoming edges
  (each row scaled by its edge's coefficient), adding the node's own scaled row, and then projecting by a matrix, is
  the same as projecting every row first and aggregating the projected rows.
-/
import Idealize.ShloMosaic.PureOps.Ideal

noncomputable section

open scoped BigOperators

namespace Cert.GcnLaw

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

/-- A finite sum of real extended reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- AGGREGATE THEN PROJECT = PROJECT THEN AGGREGATE.  For a node with incoming edges `S`, each edge `e` reading row
    `g e` of the table `H` with coefficient `coef e`, the node's own row `own` scaled by `d`, and one column `W` of the
    projection: the column's inner product with (the edge sum of scaled rows plus the scaled own row) is the edge sum of
    the scaled inner products plus the scaled own inner product — when every quantity is real. -/
theorem aggregate_project {E N K : Type} [Fintype K] (S : Finset E) (H : N → K → EReal) (g : E → N)
    (coef : E → EReal) (own : K → EReal) (d : EReal) (W : K → EReal)
    (hH : ∀ n k, IsReal (H n k)) (hc : ∀ e, IsReal (coef e)) (ho : ∀ k, IsReal (own k)) (hd : IsReal d)
    (hW : ∀ k, IsReal (W k)) :
    ∑ k, ((0 + ∑ e ∈ S, H (g e) k * coef e) + own k * d) * W k
      = (0 + ∑ e ∈ S, (∑ k, H (g e) k * W k) * coef e) + (∑ k, own k * W k) * d := by
  choose H' hH' using hH
  choose c' hc' using hc
  choose o' ho' using ho
  obtain ⟨d', rfl⟩ := hd
  choose W' hW' using hW
  simp only [hH', hc', ho', hW', zero_add, ← EReal.coe_mul, ← coe_sum, ← EReal.coe_add]
  refine congrArg _ ?_
  simp only [add_mul, Finset.sum_add_distrib, Finset.sum_mul]
  congr 1
  · rw [Finset.sum_comm]
    refine Finset.sum_congr rfl fun e _ => Finset.sum_congr rfl fun k _ => ?_
    ring
  · refine Finset.sum_congr rfl fun k _ => ?_
    ring

end Cert.GcnLaw

end
-- ==== Proof.Real.lean ====
/-
  From real inputs, every quantity the two programs form is a real number.

  A node's degree count plus one is a positive real (zero, plus one per edge landing on the node, plus one), so its
  inverse square root is real; an edge's coefficient and a node's self-loop factor are products of two of those.  The
  projected features are finite sums of products of reals, their edge aggregation a finite sum of products of reals, and
  the hidden layer the maximum of a real and zero.
-/
import proofs.«155849_j41059887350377_2_alg».proof.Proof.Shared
import proofs.«155849_j41059887350377_2_alg».proof.Proof.RefSide
import proofs.«155849_j41059887350377_2_alg».proof.Proof.LibVecGather
import proofs.«155849_j41059887350377_2_alg».proof.Proof.LibGcnLaw
import Idealize.ShloMosaic.Lib.IdealHost

noncomputable section

open scoped BigOperators

namespace Cert.Gcn

open Cert.ReferenceIdeal Cert.ReferenceIdeal.Read Cert.ReferenceIdeal.Facts₀
open Idealize.ShloMosaic Idealize.ShloMosaic.ValueIdx Cert.GcnLaw

variable (x0 : (⟨S100000x512, .f32⟩ : BufTy).Contents (Elt Ideal)) (x1 : Edges)
  (x2 : (⟨S512x16, .f32⟩ : BufTy).Contents (Elt Ideal)) (x3 : (⟨S16, .f32⟩ : BufTy).Contents (Elt Ideal))

/-- Node n's degree count plus one: zero, plus one per edge landing on n, plus one. -/
theorem degree_apply (n : Fin 100000) :
    val_main_v9 (F := Ideal) x1 (ix1 n) = (0 + ∑ e ∈ into x1 n, (1 : EReal)) + 1 := by
  have h1 := Cert.RowGatherScatter.vecScatterAdd_apply (N := 100000) (E := 3200000) (w := 32) (φ := .f32)
    scatter_S100000_S3200000x1_S3200000_n_0_0_1_wf (val_main_v5 (F := Ideal)) (val_main_v38 (F := Ideal) x1)
    (val_main_v4 (F := Ideal)) n
  have e5 : val_main_v5 (F := Ideal) (ix1 n) = (0 : EReal) := by
    rw [val_main_v5_apply, val_main_cst_0_apply]; exact Ideal.ofBits_zero_f32
  have e4 : ∀ e : Fin 3200000, val_main_v4 (F := Ideal) (ix1 e) = (1 : EReal) := fun e => by
    rw [val_main_v4_apply, val_main_cst_apply]; exact Ideal.ofBits_one_f32
  have e8 : val_main_v8 (F := Ideal) (ix1 n) = (1 : EReal) := by
    rw [val_main_v8_apply, val_main_cst_1_apply]; exact Ideal.ofBits_one_f32
  have e7 : val_main_v7 (F := Ideal) x1 (ix1 n) = 0 + ∑ e ∈ into x1 n, (1 : EReal) :=
    h1.trans (congrArg₂ (fun (a b : EReal) => a + b) e5 (Finset.sum_congr rfl fun e _ => e4 e))
  rw [val_main_v9_apply, e7, e8]
  rfl

/-- It is a positive real. -/
theorem degree_pos (n : Fin 100000) : ∃ r : ℝ, 0 < r ∧ val_main_v9 (F := Ideal) x1 (ix1 n) = (r : EReal) := by
  refine ⟨(∑ e ∈ into x1 n, (1 : ℝ)) + 1, add_pos_of_nonneg_of_pos (Finset.sum_nonneg fun _ _ => zero_le_one) one_pos, ?_⟩
  rw [degree_apply, zero_add, EReal.coe_add, coe_sum]
  rfl

/-- A node's inverse square-root degree factor is real. -/
theorem dinv_real (i : S100000.Idx) : IsReal (val_main_v10 (F := Ideal) x1 i) := by
  obtain ⟨n, rfl⟩ : ∃ n : Fin 100000, i = ix1 n := ⟨i 0, eq_ix1 i⟩
  obtain ⟨r, hr, h⟩ := degree_pos x1 n
  rw [val_main_v10_apply, h]
  exact ⟨(Real.sqrt r)⁻¹, by rw [Ideal.hostUnary_rsqrt_def, Ideal.rsqrt_coe, if_neg (not_lt.2 hr.le), if_neg hr.ne']⟩

/-- An edge's coefficient, the product of the factors of its two end nodes, is real. -/
theorem coef_real (e : Fin 3200000) : IsReal (coef x1 e) := by
  have g1 : val_main_v18 (F := Ideal) x1 (ix1 e)
      = val_main_v10 (F := Ideal) x1 (ix1 (Cert.VecGather.gatherPos 100000 (by decide) (val_main_v17 (F := Ideal) x1) e)) :=
    Cert.VecGather.vecGather_apply (N := 100000) (E := 3200000) (w := 32) (by decide)
      gather_S100000_S3200000x1_S3200000_n_0_n_n_0_1_1_wf (val_main_v10 (F := Ideal) x1) (val_main_v17 (F := Ideal) x1) e
  have g2 : val_main_v25 (F := Ideal) x1 (ix1 e)
      = val_main_v10 (F := Ideal) x1 (ix1 (Cert.VecGather.gatherPos 100000 (by decide) (val_main_v24 (F := Ideal) x1) e)) :=
    Cert.VecGather.vecGather_apply (N := 100000) (E := 3200000) (w := 32) (by decide)
      gather_S100000_S3200000x1_S3200000_n_0_n_n_0_1_1_wf (val_main_v10 (F := Ideal) x1) (val_main_v24 (F := Ideal) x1) e
  unfold coef
  rw [val_main_v26_apply, g1, g2]
  exact (dinv_real x1 _).mul (dinv_real x1 _)

/-- A node's self-loop factor, the square of its degree factor, is real. -/
theorem selfw_real (n : Fin 100000) : IsReal (selfw x1 n) := by
  unfold selfw
  rw [val_main_v40_apply]
  exact (dinv_real x1 _).mul (dinv_real x1 _)

/-- The edge aggregation of a real 16-column table is real. -/
theorem agg16_real (T : Tab16) (hT : ∀ i, IsReal (T i)) (n : Fin 100000) (k : Fin 16) : IsReal (agg16 x1 T (ix2 n k)) := by
  rw [agg16_apply]
  exact IsReal.zero.add (IsReal.sum _ _ fun e _ => (hT _).mul (coef_real x1 e))

variable (h0 : ∀ i, IsReal (x0 i)) (h2 : ∀ i, IsReal (x2 i)) (h3 : ∀ i, IsReal (x3 i))
include h0 h2

/-- The projected features are real. -/
theorem projected_real (i : S100000x16.Idx) : IsReal (val_main_v11 (F := Ideal) x0 x2 i) := by
  obtain ⟨n, k, rfl⟩ : ∃ (n : Fin 100000) (k : Fin 16), i = ix2 n k := ⟨i 0, i 1, eq_ix2 i⟩
  rw [projected_apply]
  exact IsReal.sum _ _ fun j _ => (h0 _).mul (h2 _)

include h3

/-- The hidden layer is real. -/
theorem hidden_real (i : S100000x16.Idx) : IsReal (val_main_v48 (F := Ideal) x0 x1 x2 x3 i) := by
  obtain ⟨n, k, rfl⟩ : ∃ (n : Fin 100000) (k : Fin 16), i = ix2 n k := ⟨i 0, i 1, eq_ix2 i⟩
  rw [hidden_apply]
  exact (((agg16_real x1 _ (projected_real x0 x2 h0 h2) n k).add
    ((projected_real x0 x2 h0 h2 _).mul (selfw_real x1 n))).add (h3 _)).max IsReal.zero

end Cert.Gcn

end
-- ==== Proof.Bridge.lean ====
/-
  The kernel program's result is the reference program's result.

  The projected features agree entry by entry (both are the same sum); hence so do their edge aggregations, and the
  hidden layers (the same maximum of the same sum).  For the second layer the kernel aggregates the hidden layer over the
  edges, adds the node's own scaled row and then projects by the second weight matrix, where the reference projects
  first and aggregates the projected rows: equal by the law that moves a linear projection across a real edge sum, every
  quantity being a real number under the precondition.
-/
import proofs.«155849_j41059887350377_2_alg».proof.Proof.KHost
import proofs.«155849_j41059887350377_2_alg».proof.Proof.RefSide
import proofs.«155849_j41059887350377_2_alg».proof.Proof.Real
import proofs.«155849_j41059887350377_2_alg».proof.Proof.LibGcnLaw
import proofs.«155849_j41059887350377_2_alg».proof.Proof.LibRowLayout
import proofs.«155849_j41059887350377_2_alg».proof.Proof.LibRowBias

set_option maxRecDepth 16384

noncomputable section

open scoped BigOperators

namespace Cert.KernelIdeal.Bridge

open Cert.KernelIdeal Cert.KernelIdeal.KRegion Cert.KernelIdeal.KHost
open Cert.Gcn Cert.GcnLaw
open Idealize.ShloMosaic Idealize.ShloMosaic.TcCoe Idealize.ShloMosaic.ValueIdx
open Idealize.SL.Sem

variable (m : (ℓ : Loc nD τ sig) → Buf (Elt Ideal) ℓ) (c : Dev nD)

theorem selfCol_apply (x1 : Cert.Gcn.Edges) (n : Fin 100000) : selfCol x1 (ix2 n (0 : Fin 1)) = selfw x1 n :=
  Cert.RowLayout.castCol_apply _ _ n

theorem biasRow16_apply (x3 : S16.Idx → EReal) (k : Fin 16) : biasRow16 x3 (ix2 (0 : Fin 1) k) = x3 (ix1 k) :=
  Cert.RowBias.castRow_apply _ _ k

theorem biasRow40_apply (x5 : S40.Idx → EReal) (k : Fin 40) : biasRow40 x5 (ix2 (0 : Fin 1) k) = x5 (ix1 k) :=
  Cert.RowBias.castRow_apply _ _ k

/-- The projected features are the reference's. -/
theorem projected_eq : KHost.projected m c
    = Cert.ReferenceIdeal.Read.val_main_v11 (F := Ideal) (m ((c : Thread nD τ).loc main_arg0)) (m ((c : Thread nD τ).loc main_arg2)) := by
  funext i
  obtain ⟨n, k, rfl⟩ : ∃ (n : Fin 100000) (k : Fin 16), i = ix2 n k := ⟨i 0, i 1, eq_ix2 i⟩
  exact (projected_apply _ _ n k).symm

/-- The hidden layer is the reference's. -/
theorem hidden_eq : KHost.hidden m c
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  funext i
  obtain ⟨n, k, rfl⟩ : ∃ (n : Fin 100000) (k : Fin 16), i = ix2 n k := ⟨i 0, i 1, eq_ix2 i⟩
  refine Eq.trans ?_ (hidden_apply _ _ _ _ n k).symm
  unfold KHost.hidden combineAll
  rw [projected_eq]
  exact congrArg₂ (fun (x y : EReal) => max (x + y) 0)
    (congrArg₂ (fun (x y : EReal) => x + y) rfl
      (congrArg₂ (fun (x y : EReal) => x * y) rfl (selfCol_apply _ n)))
    (biasRow16_apply _ k)

/-- THE TWO RESULTS AGREE when the features, the weights and the first bias are real. -/
theorem result_eq
    (h0 : ∀ i, IsReal (m ((c : Thread nD τ).loc main_arg0) i)) (h2 : ∀ i, IsReal (m ((c : Thread nD τ).loc main_arg2) i))
    (h3 : ∀ i, IsReal (m ((c : Thread nD τ).loc main_arg3) i)) (h4 : ∀ i, IsReal (m ((c : Thread nD τ).loc main_arg4) i)) :
    KHost.result m c = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨n, q, rfl⟩ : ∃ (n : Fin 100000) (q : Fin 40), i = ix2 n q := ⟨i 0, i 1, eq_ix2 i⟩
  refine Eq.trans ?_ (result_apply _ _ _ _ _ _ n q).symm
  unfold KHost.result aggProjectAll
  rw [hidden_eq]
  refine congrArg₂ (fun (x y : EReal) => x + y) ?_ (biasRow40_apply _ q)
  rw [agg40_apply]
  simp only [projected2_apply]
  have hH := hidden_real (m ((c : Thread nD τ).loc main_arg0)) (m ((c : Thread nD τ).loc main_arg1)) (m ((c : Thread nD τ).loc main_arg2)) (m ((c : Thread nD τ).loc main_arg3)) h0 h2 h3
  refine Eq.trans (Finset.sum_congr rfl fun k _ => ?_)
    (aggregate_project (into (m ((c : Thread nD τ).loc main_arg1)) n)
      (fun r k => Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (ix2 r k))
      (src (m ((c : Thread nD τ).loc main_arg1))) (coef (m ((c : Thread nD τ).loc main_arg1)))
      (fun k => Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (ix2 n k))
      (selfw (m ((c : Thread nD τ).loc main_arg1)) n) (fun k => m ((c : Thread nD τ).loc main_arg4) (ix2 k q))
      (fun r k => hH _) (coef_real _) (fun k => hH _) (selfw_real _ n) (fun k => h4 _))
  exact congrArg₂ (fun (x y : EReal) => x * y)
    (congrArg₂ (fun (x y : EReal) => x + y) (agg16_apply _ _ n k)
      (congrArg₂ (fun (x y : EReal) => x * y) rfl (selfCol_apply _ n))) rfl

end Cert.KernelIdeal.Bridge

end
-- ==== Proof.Finite.lean ====
/-
  The precondition read back: every entry of the four float inputs that enter a product is a real number.

  The precondition says, of each float input array, that the absolute value of every entry is below plus infinity.  On the
  extended reals an absolute value below plus infinity rules out both infinities, so the entry is a real number.
-/
import proofs.«155849_j41059887350377_2_alg».proof.Defs
import proofs.«155849_j41059887350377_2_alg».proof.Proof.Gen.Pre_finite_inputs
import proofs.«155849_j41059887350377_2_alg».proof.Proof.Gen.KernelIdeal
import proofs.«155849_j41059887350377_2_alg».proof.Proof.LibGcnLaw
import Idealize.ShloMosaic.Lib.ReduceAll
import Idealize.ShloMosaic.Lib.ValueIdx

noncomputable section

namespace Cert.Gcn

open Idealize.ShloMosaic Idealize.ShloMosaic.ValueIdx Idealize.SL.Sem Cert.GcnLaw

/-- An extended real whose absolute value is below plus infinity is a real number. -/
theorem isReal_of_abs_lt_inf (x : EReal)
    (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

open Cert.KernelIdeal in
/-- Under the precondition the features, both weight matrices and the first bias hold real numbers. -/
theorem inputs_real (m : (ℓ : Loc nD τ sig) → Buf (Elt Ideal) ℓ) (hpre : Cert.Pre_KernelIdeal m) (c : Dev nD) :
    (∀ i, IsReal (m ((c.tc : Thread nD τ).loc main_arg0) i))
    ∧ (∀ i, IsReal (m ((c.tc : Thread nD τ).loc main_arg2) i))
    ∧ (∀ i, IsReal (m ((c.tc : Thread nD τ).loc main_arg3) i))
    ∧ (∀ i, IsReal (m ((c.tc : Thread nD τ).loc main_arg4) i)) := by
  have h := congrFun (hpre c) ix0
  dsimp only [Cert.Pre_finite_inputs.fn, Cert.Pre_finite_inputs.fn_part1] at h
  obtain ⟨h1234, -⟩ := IntOp.andi_eq_one.1 h
  obtain ⟨h123, h4⟩ := IntOp.andi_eq_one.1 h1234
  obtain ⟨h12, h3⟩ := IntOp.andi_eq_one.1 h123
  obtain ⟨h0, h2⟩ := IntOp.andi_eq_one.1 h12
  exact ⟨fun i => isReal_of_abs_lt_inf _ (Host.reduce_andi_all _ _ _ _ _ h0 i),
    fun i => isReal_of_abs_lt_inf _ (Host.reduce_andi_all _ _ _ _ _ h2 i),
    fun i => isReal_of_abs_lt_inf _ (Host.reduce_andi_all _ _ _ _ _ h3 i),
    fun i => isReal_of_abs_lt_inf _ (Host.reduce_andi_all _ _ _ _ _ h4 i)⟩

end Cert.Gcn

end
-- ==== Proof.lean ====
/- A two-layer graph convolution: the kernel program against its reference, on the extended reals.

   Both programs derive from the edge list the same graph data: for every edge the row it reads and the node it lands
   on, a coefficient (the product of the inverse square-root degree factors of its two ends), and for every node a
   self-loop factor (the square of its degree factor).  A layer maps a table H of node rows to
   aggregate(H W) + (H W) * self + b, where aggregate sums, over the edges landing on a node, the source rows scaled by
   the edge coefficients.  The first layer and the clamp at zero are spelt the same way in both programs, the kernel
   running the projection, the combination and the clamp in two kernel regions: entry by entry the same sums.  For the
   second layer the kernel computes (aggregate(H) + H * self) W + b, projecting AFTER it aggregates, in its third region.
   Projection is linear and, under the precondition, every entry of the hidden layer, every coefficient, every self-loop
   factor and every weight is a real number, so multiplication distributes over the edge sums and the two orders agree
   (Proof/LibGcnLaw.lean).  The three frames are the programs' runs; the idealization rewrote nothing.

   Modules: Proof/KRun.lean (the kernel program's run with its result named), Proof/KPay.lean (the three kernel bodies'
   stored values at an entry), Proof/KRegion.lean (each region's result array as one function of its operand arrays),
   Proof/KHost.lean (the buffer contents at the segment boundaries, and the result as one term of the arguments),
   Proof/Shared.lean (the graph data and the edge aggregation at an entry), Proof/RefSide.lean (the reference's stages at
   an entry), Proof/Real.lean (everything computed from real inputs is real), Proof/Finite.lean (the precondition read
   back), Proof/Bridge.lean (the two results are equal). -/
import proofs.«155849_j41059887350377_2_alg».proof.Defs
import proofs.«155849_j41059887350377_2_alg».proof.Proof.Gen.Kernel
import proofs.«155849_j41059887350377_2_alg».proof.Proof.Gen.Kernel.Frame
import proofs.«155849_j41059887350377_2_alg».proof.Proof.Gen.KernelIdeal
import proofs.«155849_j41059887350377_2_alg».proof.Proof.Gen.KernelIdeal.Frame
import proofs.«155849_j41059887350377_2_alg».proof.Proof.Gen.ReferenceIdeal
import proofs.«155849_j41059887350377_2_alg».proof.Proof.Gen.Pre_finite_inputs
import proofs.«155849_j41059887350377_2_alg».proof.Proof.Gen.ReferenceIdeal.Run
import proofs.«155849_j41059887350377_2_alg».proof.Proof.Gen.ReferenceIdeal.Read
import proofs.«155849_j41059887350377_2_alg».proof.Proof.KRun
import proofs.«155849_j41059887350377_2_alg».proof.Proof.KHost
import proofs.«155849_j41059887350377_2_alg».proof.Proof.Bridge
import proofs.«155849_j41059887350377_2_alg».proof.Proof.Finite
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the same result: the kernel's run ends at the projected aggregate of
    the hidden layer, the reference's at the aggregate of the projected hidden layer, of arguments that agree; the two
    are equal because under the precondition everything that enters a product is a real number. -/
theorem algebraic : Cert.algebraic_KernelIdeal_ReferenceIdeal := by
  intro m ρ m' ρ' hpre hagree
  refine ⟨fun c => Cert.KernelIdeal.KHost.result m c, ?_, ?_⟩
  · exact (θ_run Cert.KernelIdeal.defs _ _).mono
      (fun r h c => ⟨(h c).1.trans (Cert.KernelIdeal.KHost.W6_v57 m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq, (hagree c).1, (hagree c).2.1, (hagree c).2.2.1, (hagree c).2.2.2.1,
      (hagree c).2.2.2.2.1, (hagree c).2.2.2.2.2]
    obtain ⟨h0, h2, h3, h4⟩ := Cert.Gcn.inputs_real m hpre c
    exact (Cert.KernelIdeal.Bridge.result_eq m c h0 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
